-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩
abbrev S128x64 : Shape := ⟨2, ![128, 64]⟩
abbrev S100000x1 : Shape := ⟨2, ![100000, 1]⟩
abbrev S1x1 : Shape := ⟨2, ![1, 1]⟩
abbrev S128x1 : Shape := ⟨2, ![128, 1]⟩

abbrev nBuf : Space → Nat
  | .hbm => 98
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x64, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S1700000x1, .f32⟩
  | .hbm, ⟨65, _⟩ => ⟨S1700000x64, .f32⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S_, .f32⟩
  | .hbm, ⟨92, _⟩ => ⟨S128x64, .f32⟩
  | .hbm, ⟨93, _⟩ => ⟨S100000x1, .i32⟩
  | .hbm, ⟨94, _⟩ => ⟨S128x64, .f32⟩
  | .hbm, ⟨95, _⟩ => ⟨S1x64, .f32⟩
  | .hbm, ⟨96, _⟩ => ⟨S1x1, .f32⟩
  | .hbm, ⟨97, _⟩ => ⟨S128x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S128x64, .f32⟩
  | .local _ .vmem, ⟨17, _⟩ => ⟨S64x64, .f32⟩
  | .local _ .vmem, ⟨18, _⟩ => ⟨S1x64, .f32⟩
  | .local _ .vmem, ⟨19, _⟩ => ⟨S64x1, .f32⟩
  | .local _ .vmem, ⟨20, _⟩ => ⟨S1x1, .f32⟩
  | .local _ .vmem, ⟨21, _⟩ => ⟨S128x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S128x64 : S_.BroadcastsInDim S128x64 (![] : Fin 0 → Fin S128x64.rank)
  bcast_S100000_S100000x1_0 : S100000.BroadcastsInDim S100000x1 (![0] : Fin 1 → Fin S100000x1.rank)
  shapeCasts_S1_S1x1 : S1.ShapeCasts S1x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S128x64 : S1x64.Broadcasts S128x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S128x64_S100000x1_S100000x64_1_0_0_1_wf : ScatterDims.WF S128x64 S100000x1 S100000x64 [1] [0] [0] 1
  dot_S128x64_S64x64_S128x64_1_0_0_1_n_n_wf : DotDims.WF S128x64 S64x64 S128x64 [1] [0] [0] [1] [] []
  dot_S128x64_S64x1_S128x1_1_0_0_1_n_n_wf : DotDims.WF S128x64 S64x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x64.size a ≤ S128x64.size a
  hwx3_0 : ∀ i : grid3.Coords, EltTy.bits .f32 = 32 ∨ (Rect.block (s := S128x64) S128x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S128x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S128x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S128x64 : Shape := ⟨2, ![128, 64]⟩
abbrev S100000x1 : Shape := ⟨2, ![100000, 1]⟩
abbrev S128x1 : Shape := ⟨2, ![128, 1]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x64, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x1, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S1x1600000, .i32⟩
  | 78 => ⟨S1600000, .i32⟩
  | 79 => ⟨S1x1600000, .i32⟩
  | 80 => ⟨S1600000, .i32⟩
  | 81 => ⟨S100000, .i32⟩
  | 82 => ⟨S1700000, .i32⟩
  | 83 => ⟨S1700000, .i32⟩
  | 84 => ⟨S_, .f32⟩
  | 85 => ⟨S1700000, .f32⟩
  | 86 => ⟨S_, .f32⟩
  | 87 => ⟨S100000, .f32⟩
  | 88 => ⟨S1700000x1, .i32⟩
  | 89 => ⟨S100000, .f32⟩
  | 90 => ⟨S_, .f32⟩
  | 91 => ⟨S100000, .f32⟩
  | 92 => ⟨S100000, .i1⟩
  | 93 => ⟨S_, .f32⟩
  | 94 => ⟨S100000, .f32⟩
  | 95 => ⟨S100000, .f32⟩
  | 96 => ⟨S100000, .f32⟩
  | 97 => ⟨S_, .f32⟩
  | 98 => ⟨S_, .f32⟩
  | 99 => ⟨S100000, .f32⟩
  | 100 => ⟨S100000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000, .f32⟩
  | 119 => ⟨S1700000, .f32⟩
  | 120 => ⟨S100000x64, .f32⟩
  | 121 => ⟨S_, .i32⟩
  | 122 => ⟨S1700000, .i32⟩
  | 123 => ⟨S1700000, .i1⟩
  | 124 => ⟨S_, .i32⟩
  | 125 => ⟨S1700000, .i32⟩
  | 126 => ⟨S1700000, .i32⟩
  | 127 => ⟨S1700000, .i32⟩
  | _ => ⟨S100000x64, .f32⟩

abbrev hbmTy0_1 (i : Nat) : BufTy := match i % 128 with
  | 0 => ⟨S1700000x1, .i32⟩
  | 1 => ⟨S1700000x64, .f32⟩
  | 2 => ⟨S1700000x1, .f32⟩
  | 3 => ⟨S1700000x64, .f32⟩
  | 4 => ⟨S1700000x64, .f32⟩
  | 5 => ⟨S_, .f32⟩
  | 6 => ⟨S100000x64, .f32⟩
  | 7 => ⟨S1700000x1, .i32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S_, .f32⟩
  | 16 => ⟨S128x64, .f32⟩
  | 17 => ⟨S100000x1, .i32⟩
  | 18 => ⟨S128x64, .f32⟩
  | 19 => ⟨S128x64, .f32⟩
  | 20 => ⟨S1x64, .f32⟩
  | 21 => ⟨S128x64, .f32⟩
  | 22 => ⟨S128x64, .f32⟩
  | 23 => ⟨S_, .f32⟩
  | 24 => ⟨S128x64, .f32⟩
  | 25 => ⟨S128x64, .f32⟩
  | 26 => ⟨S128x1, .f32⟩
  | 27 => ⟨S1x1, .f32⟩
  | 28 => ⟨S128x1, .f32⟩
  | 29 => ⟨S128x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_14 : Ref sig .tc := ⟨.hbm, 97, rfl⟩
abbrev main_call2_v0 : Ref sig .tc := ⟨.hbm, 98, rfl⟩
abbrev main_call2_v1 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_17 : Ref sig .tc := ⟨.hbm, 110, rfl⟩
abbrev main_v74 : Ref sig .tc := ⟨.hbm, 111, rfl⟩
abbrev main_v75 : Ref sig .tc := ⟨.hbm, 112, rfl⟩
abbrev main_c_18 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_19 : Ref sig .tc := ⟨.hbm, 121, rfl⟩
abbrev main_v83 : Ref sig .tc := ⟨.hbm, 122, rfl⟩
abbrev main_v84 : Ref sig .tc := ⟨.hbm, 123, rfl⟩
abbrev main_c_20 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_21 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_call3_cst : Ref sig .tc := ⟨.hbm, 140, rfl⟩
abbrev main_call3_v0 : Ref sig .tc := ⟨.hbm, 141, rfl⟩
abbrev main_v99 : Ref sig .tc := ⟨.hbm, 142, rfl⟩
abbrev main_cst_22 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_call4_cst : Ref sig .tc := ⟨.hbm, 151, rfl⟩
abbrev main_call4_v0 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S1x64_S128x64_0_1 : S1x64.BroadcastsInDim S128x64 (![0, 1] : Fin 2 → Fin S128x64.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S128x64_S100000x1_S100000x64_1_0_0_1_wf : ScatterDims.WF S128x64 S100000x1 S100000x64 [1] [0] [0] 1
  dot_S128x64_S64x64_S128x64_1_0_0_1_n_n_wf : DotDims.WF S128x64 S64x64 S128x64 [1] [0] [0] [1] [] []
  dot_S128x64_S64x1_S128x1_1_0_0_1_n_n_wf : DotDims.WF S128x64 S64x1 S128x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

class Facts : Prop extends Facts₀ where

variable [Facts]
-- ==== Proof.KernelRun.lean ====
/-
  The idealized kernel's run with its result named. Every weakly fair execution of the program — three stretches of
  host operations, then four launches with a stretch of host operations before each of the last three — terminates
  without a fault; at the end the result buffer holds what the last boundary of that chain of segments holds there
  (the last launch's output array after its one point), and the eleven argument arrays are as launched.
-/
import proofs.«174137_j66829691126193_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the chain of segments from the launch memory, the final state read at the result buffer and at each
    argument. -/
theorem run : θ_run defs (onTc (τ := τ) (main (F := F))) ⟨m, fun _ => 0, ρ⟩ (fun r => ∀ c : Dev nD,
      r.2.mem ((c.tc : Thread nD τ).loc main_v68) = W10 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v68 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.RunValue

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibBiasRow.lean ====
/-
  A bias row added to a matrix, with or without a clamp at zero, read at an entry given by its coordinates, for any
  extents a × b, on the extended reals, in the two spellings programs print.

  * The vector unit's: the matrix and a `[1, b]` row come through identity casts, the row is broadcast down the `a`
    rows and added; the clamp is the maximum with a splat of the zero word.
  * The host's: a `[1, b]` row broadcast down the `a` rows (`broadcast_in_dim` over both axes) and added; the clamp is
    the maximum with the zero word broadcast from a scalar.
  * A `[b]` vector reshaped to the row `[1, b]` is that vector placed as the row by `broadcast_in_dim`.
  Nothing is rearranged, so nothing needs finiteness.
-/
import proofs.«174137_j66829691126193_1_alg».proof.Proof.LibRowMax
import Idealize.ShloMosaic.Lib.ValueLayout
import Idealize.ShloMosaic.Lib.Pipeline.Value
import Idealize.ShloMosaic.PureOps.Ideal.Laws

noncomputable section

namespace Cert.LibBiasRow

open Idealize.ShloMosaic Idealize.ShloMosaic.ValueIdx Cert.LibRowMax

variable {α : Type} {a b : ℕ}

/-- The host's zero matrix (the zero word broadcast from a scalar) reads the zero word at every entry. -/
theorem host_zero_apply (h0 : (⟨0, ![]⟩ : Shape).BroadcastsInDim ⟨2, ![a, b]⟩ ![]) (p : Fin a) (q : Fin b) :
    broadcastInDim ⟨2, ![a, b]⟩ ![] h0 (constant (F := Ideal) ⟨0, ![]⟩ .f32 0x00000000#32) (ix2 p q)
      = Ideal.ofBits .f32 0x00000000#32 :=
  broadcastInDim_apply _ h0 _ (ix2 p q) ix0 (fun ax => ax.elim0)

/-- The vector unit's bias row added to a matrix, at `(p, q)`. -/
theorem vector_bias_apply (y : FVec Ideal ⟨2, ![a, b]⟩ .f32) (β : FVec Ideal ⟨2, ![1, b]⟩ .f32)
    (hβ : (⟨2, ![1, b]⟩ : Shape).ShapeCasts ⟨2, ![1, b]⟩) (hbc : (⟨2, ![1, b]⟩ : Shape).Broadcasts ⟨2, ![a, b]⟩)
    (p : Fin a) (q : Fin b) :
    addf y (broadcastTo ⟨2, ![a, b]⟩ (shapeCast ⟨2, ![1, b]⟩ β hβ) hbc) (ix2 p q) = y (ix2 p q) + β (ix2 (0 : Fin 1) q) := by
  rw [shapeCast_self]
  show y (ix2 p q) + broadcastTo ⟨2, ![a, b]⟩ β hbc (ix2 p q) = _
  rw [broadcastTo_1b_ab_apply β hbc p q]

/-- The vector unit's bias row added to a matrix and clamped at zero, at `(p, q)`. -/
theorem vector_bias_clamp_apply (x : FVec Ideal ⟨2, ![a, b]⟩ .f32) (β : FVec Ideal ⟨2, ![1, b]⟩ .f32)
    (hx : (⟨2, ![a, b]⟩ : Shape).ShapeCasts ⟨2, ![a, b]⟩)
    (hβ : (⟨2, ![1, b]⟩ : Shape).ShapeCasts ⟨2, ![1, b]⟩) (hbc : (⟨2, ![1, b]⟩ : Shape).Broadcasts ⟨2, ![a, b]⟩)
    (p : Fin a) (q : Fin b) :
    maximumf (addf (shapeCast ⟨2, ![a, b]⟩ x hx) (broadcastTo ⟨2, ![a, b]⟩ (shapeCast ⟨2, ![1, b]⟩ β hβ) hbc))
        (broadcast ⟨2, ![a, b]⟩ (Scalar.ofBits (F := Ideal) .f32 0x00000000#32)) (ix2 p q)
      = max (x (ix2 p q) + β (ix2 (0 : Fin 1) q)) (Ideal.ofBits .f32 0x00000000#32) := by
  rw [shapeCast_self, shapeCast_self]
  show max (x (ix2 p q) + broadcastTo ⟨2, ![a, b]⟩ β hbc (ix2 p q)) (Ideal.ofBits .f32 0x00000000#32) = _
  rw [broadcastTo_1b_ab_apply β hbc p q]

/-- The host's bias row added to a matrix, at `(p, q)`. -/
theorem host_bias_apply (Y : FVec Ideal ⟨2, ![a, b]⟩ .f32) (β : FVec Ideal ⟨2, ![1, b]⟩ .f32)
    (h2 : (⟨2, ![1, b]⟩ : Shape).BroadcastsInDim ⟨2, ![a, b]⟩ ![0, 1]) (p : Fin a) (q : Fin b) :
    addf Y (broadcastInDim ⟨2, ![a, b]⟩ ![0, 1] h2 β) (ix2 p q) = Y (ix2 p q) + β (ix2 (0 : Fin 1) q) := by
  show Y (ix2 p q) + broadcastInDim ⟨2, ![a, b]⟩ ![0, 1] h2 β (ix2 p q) = _
  rw [broadcastInDim_1b_ab_apply β h2 p q]

/-- The host's bias row added to a matrix and clamped at zero, at `(p, q)`. -/
theorem host_bias_clamp_apply (X : FVec Ideal ⟨2, ![a, b]⟩ .f32) (β : FVec Ideal ⟨2, ![1, b]⟩ .f32)
    (h2 : (⟨2, ![1, b]⟩ : Shape).BroadcastsInDim ⟨2, ![a, b]⟩ ![0, 1])
    (h0 : (⟨0, ![]⟩ : Shape).BroadcastsInDim ⟨2, ![a, b]⟩ ![]) (p : Fin a) (q : Fin b) :
    maximumf (addf X (broadcastInDim ⟨2, ![a, b]⟩ ![0, 1] h2 β))
        (broadcastInDim ⟨2, ![a, b]⟩ ![] h0 (constant (F := Ideal) ⟨0, ![]⟩ .f32 0x00000000#32)) (ix2 p q)
      = max (X (ix2 p q) + β (ix2 (0 : Fin 1) q)) (Ideal.ofBits .f32 0x00000000#32) := by
  show max (X (ix2 p q) + broadcastInDim ⟨2, ![a, b]⟩ ![0, 1] h2 β (ix2 p q))
      (broadcastInDim ⟨2, ![a, b]⟩ ![] h0 (constant (F := Ideal) ⟨0, ![]⟩ .f32 0x00000000#32) (ix2 p q)) = _
  rw [host_zero_apply h0 p q, broadcastInDim_1b_ab_apply β h2 p q]

/-- A `[b]` vector reshaped to the row `[1, b]` is the vector placed as that row. -/
theorem shapeCast_row_eq (v : (⟨1, ![b]⟩ : Shape).Idx → α) (hc : (⟨1, ![b]⟩ : Shape).ShapeCasts ⟨2, ![1, b]⟩)
    (h : (⟨1, ![b]⟩ : Shape).BroadcastsInDim ⟨2, ![1, b]⟩ ![1]) :
    shapeCast ⟨2, ![1, b]⟩ v hc = broadcastInDim ⟨2, ![1, b]⟩ ![1] h v := by
  funext j
  obtain ⟨u, q, rfl⟩ : ∃ (u : Fin 1) (q : Fin b), j = ix2 u q := ⟨j 0, j 1, eq_ix2 j⟩
  rw [broadcastInDim_b_1b_apply v h u q]
  exact shapeCast_a_1a_apply v hc u q

end Cert.LibBiasRow

end
-- ==== Proof.HostStretches.lean ====
/-
  The idealized kernel's stretches of host operations, one stretch at a time and from ANY contents of the buffers before
  the stretch: what each stretch leaves in the buffers a later launch or stretch reads, written with the reference's own
  stages (the value each operation of the reference writes, as a function of the arguments). The kernel's host side
  computes the graph normalisation once — sources and targets with the self loops appended, the degree by a scatter of
  ones, its inverse square root where positive, the product of the two gathered factors — and each aggregation (wrap
  negative indices, gather rows, scale, scatter-add by target) and the pooling by graph exactly as the reference does; so
  each buffer equals the matching stage operation for operation, given that the buffers the stretch reads hold the
  matching stages. The bias vectors reach the launches reshaped to one row, which is the vector placed as a row.
  A buffer no operation of a stretch writes keeps its contents.
-/
import proofs.«174137_j66829691126193_1_alg».proof.Proof.Gen.KernelIdeal.Launch
import proofs.«174137_j66829691126193_1_alg».proof.Proof.RefRead
import proofs.«174137_j66829691126193_1_alg».proof.Proof.LibBiasRow
import Idealize.ShloMosaic.Lib.StableHlo.Run

noncomputable section

namespace Cert.KernelIdeal.Stretch

open Cert.KernelIdeal Cert.KernelIdeal.Gen Idealize.ShloMosaic Idealize.ShloMosaic.TcCoe Idealize.SL.Sem Idealize.ShloMosaic.StableHlo
open Cert.ReferenceIdeal.ReadP

variable (Wp : Valuation τ sig (Elt Ideal))

/-! ## The first stretch: sources, targets, the degree, its inverse square root -/

theorem A0_v5 : after hostOps0 Wp (Proc.devRef .tc main_v5) = val_main_v5 (F := Ideal) (Wp (Proc.devRef .tc main_arg1)) := by
  after_results_simp <;> rfl

theorem A0_v6 : after hostOps0 Wp (Proc.devRef .tc main_v6) = val_main_v6 (F := Ideal) (Wp (Proc.devRef .tc main_arg1)) := by
  after_results_simp <;> rfl

theorem A0_v12 : after hostOps0 Wp (Proc.devRef .tc main_v12) = val_main_v12 (F := Ideal) (Wp (Proc.devRef .tc main_arg1)) := by
  after_results_simp <;> rfl

theorem A0_v15 : after hostOps0 Wp (Proc.devRef .tc main_v15) = val_main_v15 (F := Ideal) (Wp (Proc.devRef .tc main_arg1)) := by
  after_results_simp <;> rfl

theorem A0_cst3 : after hostOps0 Wp (Proc.devRef .tc main_cst_3) = val_main_cst_3 (F := Ideal) := by
  after_results_simp <;> rfl

/-- The buffers the first stretch writes. -/
def writes0 : List (Ref sig .tc) :=
  [main_v0, main_v1, main_v2, main_v3, main_v4, main_v5, main_v6, main_cst, main_v7, main_cst_0, main_v8, main_v9, main_v10,
    main_cst_1, main_v11, main_v12, main_cst_2, main_v13, main_v14, main_v15, main_cst_3]

theorem writes0_sub : (hostOps0 : List (HloOp τ sig (Elt Ideal))).Forall fun op =>
    op.writes ⊆ (writes0.map (Proc.devRef (τ := τ) .tc)).toFinset := by
  simp only [hostOps0, writes0, List.Forall, nullary_writes, unary_writes, binary_writes, ternary_writes, reshape_writes,
    Finset.singleton_subset_iff, List.mem_toFinset]
  repeat' apply And.intro
  all_goals exact List.mem_map_of_mem (by decide)

theorem keep0 (r : Ref sig .tc) (hr : r ∉ writes0) : after hostOps0 Wp (Proc.devRef .tc r) = Wp (Proc.devRef .tc r) :=
  after_of_writes_sub hostOps0 Wp writes0_sub hr

/-! ## The second stretch: zero where the degree is not positive -/

/-- The selection of the inverse square root where the degree is positive and of the broadcast scalar elsewhere. -/
def whereK (v12 : (⟨S100000, .i1⟩ : BufTy).Contents (Elt Ideal)) (v15 : (⟨S100000, .f32⟩ : BufTy).Contents (Elt Ideal)) (z : (⟨S_, .f32⟩ : BufTy).Contents (Elt Ideal)) : (⟨S100000, .f32⟩ : BufTy).Contents (Elt Ideal) :=
  select v12 v15 (broadcastInDim S100000 ![] bcast_S_S100000 z)

theorem A1_v16 : after hostOps0_1 Wp (Proc.devRef .tc main_v16)
    = whereK (Wp (Proc.devRef .tc main_v12)) (Wp (Proc.devRef .tc main_v15)) (Wp (Proc.devRef .tc main_cst_3)) := by
  after_results_simp <;> rfl

theorem whereK_eq (x1 : (⟨S2x1600000, .i32⟩ : BufTy).Contents (Elt Ideal)) :
    whereK (val_main_v12 (F := Ideal) x1) (val_main_v15 (F := Ideal) x1) (val_main_cst_3 (F := Ideal)) = val_main_v16 (F := Ideal) x1 := rfl

def writes0_1 : List (Ref sig .tc) := [main_call0_v0, main_call0_v1, main_v16]

theorem writes0_1_sub : (hostOps0_1 : List (HloOp τ sig (Elt Ideal))).Forall fun op =>
    op.writes ⊆ (writes0_1.map (Proc.devRef (τ := τ) .tc)).toFinset := by
  simp only [hostOps0_1, writes0_1, List.Forall, nullary_writes, unary_writes, binary_writes, ternary_writes, reshape_writes,
    Finset.singleton_subset_iff, List.mem_toFinset]
  repeat' apply And.intro
  all_goals exact List.mem_map_of_mem (by decide)

theorem keep0_1 (r : Ref sig .tc) (hr : r ∉ writes0_1) : after hostOps0_1 Wp (Proc.devRef .tc r) = Wp (Proc.devRef .tc r) :=
  after_of_writes_sub hostOps0_1 Wp writes0_1_sub hr

/-! ## The third stretch: the edge weights -/

set_option maxHeartbeats 1000000 in
theorem A2_v31 (x1 : (⟨S2x1600000, .i32⟩ : BufTy).Contents (Elt Ideal))
    (h5 : Wp (Proc.devRef .tc main_v5) = val_main_v5 (F := Ideal) x1)
    (h6 : Wp (Proc.devRef .tc main_v6) = val_main_v6 (F := Ideal) x1)
    (h16 : Wp (Proc.devRef .tc main_v16) = val_main_v16 (F := Ideal) x1) :
    after hostOps0_2 Wp (Proc.devRef .tc main_v31) = val_main_v31 (F := Ideal) x1 := by
  after_results_simp
  rw [h5, h6, h16]
  rfl

def writes0_2 : List (Ref sig .tc) :=
  [main_c, main_v17, main_v18, main_c_4, main_v19, main_v20, main_v21, main_v22, main_v23, main_c_5, main_v24, main_v25,
    main_c_6, main_v26, main_v27, main_v28, main_v29, main_v30, main_v31]

theorem writes0_2_sub : (hostOps0_2 : List (HloOp τ sig (Elt Ideal))).Forall fun op =>
    op.writes ⊆ (writes0_2.map (Proc.devRef (τ := τ) .tc)).toFinset := by
  simp only [hostOps0_2, writes0_2, List.Forall, nullary_writes, unary_writes, binary_writes, ternary_writes, reshape_writes,
    Finset.singleton_subset_iff, List.mem_toFinset]
  repeat' apply And.intro
  all_goals exact List.mem_map_of_mem (by decide)

theorem keep0_2 (r : Ref sig .tc) (hr : r ∉ writes0_2) : after hostOps0_2 Wp (Proc.devRef .tc r) = Wp (Proc.devRef .tc r) :=
  after_of_writes_sub hostOps0_2 Wp writes0_2_sub hr

/-! ## The stretch before the second launch: the first aggregation, the first bias as a row -/

set_option maxHeartbeats 1000000 in
theorem B_v45 (x0 : (⟨S100000x64, .f32⟩ : BufTy).Contents (Elt Ideal)) (x1 : (⟨S2x1600000, .i32⟩ : BufTy).Contents (Elt Ideal)) (x3 : (⟨S64x64, .f32⟩ : BufTy).Contents (Elt Ideal))
    (h32 : Wp (Proc.devRef .tc main_v32) = val_main_v32 (F := Ideal) x0 x3)
    (h5 : Wp (Proc.devRef .tc main_v5) = val_main_v5 (F := Ideal) x1)
    (h6 : Wp (Proc.devRef .tc main_v6) = val_main_v6 (F := Ideal) x1)
    (h31 : Wp (Proc.devRef .tc main_v31) = val_main_v31 (F := Ideal) x1) :
    after hostOps1 Wp (Proc.devRef .tc main_v45) = val_main_v45 (F := Ideal) x0 x1 x3 := by
  after_results_simp
  rw [h32, h5, h6, h31]
  rfl

theorem B_v46 : after hostOps1 Wp (Proc.devRef .tc main_v46) = val_main_v46 (F := Ideal) (Wp (Proc.devRef .tc main_arg4)) := by
  after_results_simp
  exact Cert.LibBiasRow.shapeCast_row_eq (b := 64) _ _ _

def writes1 : List (Ref sig .tc) :=
  [main_c_7, main_v33, main_v34, main_c_8, main_v35, main_v36, main_v37, main_v38, main_v39, main_v40, main_v41, main_v42,
    main_cst_9, main_v43, main_v44, main_v45, main_v46]

theorem writes1_sub : (hostOps1 : List (HloOp τ sig (Elt Ideal))).Forall fun op =>
    op.writes ⊆ (writes1.map (Proc.devRef (τ := τ) .tc)).toFinset := by
  simp only [hostOps1, writes1, List.Forall, nullary_writes, unary_writes, binary_writes, ternary_writes, reshape_writes,
    Finset.singleton_subset_iff, List.mem_toFinset]
  repeat' apply And.intro
  all_goals exact List.mem_map_of_mem (by decide)

theorem keep1 (r : Ref sig .tc) (hr : r ∉ writes1) : after hostOps1 Wp (Proc.devRef .tc r) = Wp (Proc.devRef .tc r) :=
  after_of_writes_sub hostOps1 Wp writes1_sub hr

/-! ## The stretch before the third launch: the second aggregation, the second bias as a row -/

set_option maxHeartbeats 1000000 in
theorem C_v60 (x0 : (⟨S100000x64, .f32⟩ : BufTy).Contents (Elt Ideal)) (x1 : (⟨S2x1600000, .i32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal))
    (h47 : Wp (Proc.devRef .tc main_v47) = val_main_v82 (F := Ideal) x0 x1 x3 x4 x5)
    (h5 : Wp (Proc.devRef .tc main_v5) = val_main_v55 (F := Ideal) x1)
    (h6 : Wp (Proc.devRef .tc main_v6) = val_main_v56 (F := Ideal) x1)
    (h31 : Wp (Proc.devRef .tc main_v31) = val_main_v81 (F := Ideal) x1) :
    after hostOps2 Wp (Proc.devRef .tc main_v60) = val_main_v95 (F := Ideal) x0 x1 x3 x4 x5 := by
  after_results_simp
  rw [h47, h5, h6, h31]
  rfl

theorem C_v61 : after hostOps2 Wp (Proc.devRef .tc main_v61) = val_main_v96 (F := Ideal) (Wp (Proc.devRef .tc main_arg6)) := by
  after_results_simp
  exact Cert.LibBiasRow.shapeCast_row_eq (b := 64) _ _ _

def writes2 : List (Ref sig .tc) :=
  [main_c_10, main_v48, main_v49, main_c_11, main_v50, main_v51, main_v52, main_v53, main_v54, main_v55, main_v56, main_v57,
    main_cst_12, main_v58, main_v59, main_v60, main_v61]

theorem writes2_sub : (hostOps2 : List (HloOp τ sig (Elt Ideal))).Forall fun op =>
    op.writes ⊆ (writes2.map (Proc.devRef (τ := τ) .tc)).toFinset := by
  simp only [hostOps2, writes2, List.Forall, nullary_writes, unary_writes, binary_writes, ternary_writes, reshape_writes,
    Finset.singleton_subset_iff, List.mem_toFinset]
  repeat' apply And.intro
  all_goals exact List.mem_map_of_mem (by decide)

theorem keep2 (r : Ref sig .tc) (hr : r ∉ writes2) : after hostOps2 Wp (Proc.devRef .tc r) = Wp (Proc.devRef .tc r) :=
  after_of_writes_sub hostOps2 Wp writes2_sub hr

/-! ## The stretch before the last launch: the pooling by graph, the head's two biases as rows -/

theorem D_v65 (x0 : (⟨S100000x64, .f32⟩ : BufTy).Contents (Elt Ideal)) (x1 : (⟨S2x1600000, .i32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal)) (x6 : (⟨S64, .f32⟩ : BufTy).Contents (Elt Ideal))
    (h62 : Wp (Proc.devRef .tc main_v62) = val_main_v99 (F := Ideal) x0 x1 x3 x4 x5 x6) :
    after hostOps3 Wp (Proc.devRef .tc main_v65)
      = val_main_v102 (F := Ideal) x0 x1 (Wp (Proc.devRef .tc main_arg2)) x3 x4 x5 x6 := by
  after_results_simp
  rw [h62]
  rfl

theorem D_v66 : after hostOps3 Wp (Proc.devRef .tc main_v66) = val_main_v104 (F := Ideal) (Wp (Proc.devRef .tc main_arg8)) := by
  after_results_simp
  exact Cert.LibBiasRow.shapeCast_row_eq (b := 64) _ _ _

theorem D_v67 : after hostOps3 Wp (Proc.devRef .tc main_v67) = val_main_v109 (F := Ideal) (Wp (Proc.devRef .tc main_arg10)) := by
  after_results_simp
  exact Cert.LibBiasRow.shapeCast_row_eq (b := 1) _ _ _

def writes3 : List (Ref sig .tc) := [main_cst_13, main_v63, main_v64, main_v65, main_v66, main_v67]

theorem writes3_sub : (hostOps3 : List (HloOp τ sig (Elt Ideal))).Forall fun op =>
    op.writes ⊆ (writes3.map (Proc.devRef (τ := τ) .tc)).toFinset := by
  simp only [hostOps3, writes3, List.Forall, nullary_writes, unary_writes, binary_writes, ternary_writes, reshape_writes,
    Finset.singleton_subset_iff, List.mem_toFinset]
  repeat' apply And.intro
  all_goals exact List.mem_map_of_mem (by decide)

theorem keep3 (r : Ref sig .tc) (hr : r ∉ writes3) : after hostOps3 Wp (Proc.devRef .tc r) = Wp (Proc.devRef .tc r) :=
  after_of_writes_sub hostOps3 Wp writes3_sub hr

/-! ## The reference computes the normalisation a second time, to the same values -/

theorem v55_eq (x1 : (⟨S2x1600000, .i32⟩ : BufTy).Contents (Elt Ideal)) : val_main_v55 (F := Ideal) x1 = val_main_v5 (F := Ideal) x1 := rfl
theorem v56_eq (x1 : (⟨S2x1600000, .i32⟩ : BufTy).Contents (Elt Ideal)) : val_main_v56 (F := Ideal) x1 = val_main_v6 (F := Ideal) x1 := rfl
theorem v81_eq (x1 : (⟨S2x1600000, .i32⟩ : BufTy).Contents (Elt Ideal)) : val_main_v81 (F := Ideal) x1 = val_main_v31 (F := Ideal) x1 := rfl

end Cert.KernelIdeal.Stretch

end
-- ==== Proof.Region0.lean ====
/-
  The first linear map. The array the first launch leaves, for any contents of the buffers at its entry: every one of the
  twenty points multiplies its block of 5000 rows of the node features by the whole 64 × 64 weight matrix, so entry
  (r, q) of the result is the sum over e of feature (r, e) times weight (e, q) — the plain product of the whole feature
  matrix with the weight matrix. Block t of the features is rows 5000 t … 5000 t + 4999, the weight block is the whole
  matrix at every point, and the twenty output blocks tile the 100000 rows.
-/
import proofs.«174137_j66829691126193_1_alg».proof.Proof.Gen.KernelIdeal.Frame
import proofs.«174137_j66829691126193_1_alg».proof.Proof.LibRowMax
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.LibRowMax

variable (V : (c : Dev nD) → (b : Ref sig .tc) → Buf (Elt Ideal) ((c : Thread nD τ).loc b))

theorem hz : (![0, 0] : Fin 2 → Nat) = fun _ => 0 := funext fun a => by fin_cases a <;> rfl

/-- The body's product at entry (p, q) of a block: the sum over e of x (p, e) · w (e, q). -/
theorem pay_apply (x0 : Vec Ideal S5000x64 .f32) (x1 : Vec Ideal S64x64 .f32) (p : Fin 5000) (q : Fin 64) :
    k0_pay1 x0 x1 (ix2 p q) = ∑ e : Fin 64, x0 (ix2 p e) * x1 (ix2 e q) := by
  unfold k0_pay1
  exact matmul_plain_apply (a := 5000) (k := 64) (b := 64) dot_S5000x64_S64x64_S5000x64_1_0_0_1_n_n.wf none x0 x1 p q

/-- Where each window's block sits at point t: the feature and result blocks at row block t, the weights at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem row_lt (t : Fin cfg0.N) (p : Fin 5000) : t.val * 5000 + p.val < 100000 := by
  have h : t.val < 20 := lt_of_lt_of_eq t.isLt N_0
  have := p.isLt; omega

/-- The feature block at point t is rows 5000 t … of the feature matrix. -/
theorem blk0_apply (c : Dev nD) (t : Fin cfg0.N) (p : Fin 5000) (e : Fin 64) :
    (iblk0 V c 0 t : Vec Ideal S5000x64 .f32) (ix2 p e)
      = (V c main_arg0 : S100000x64.Idx → EReal) (ix2 ⟨t.val * 5000 + p.val, row_lt t p⟩ e) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 64 + 1 * e.val = e.val; rw [e1]; omega

/-- The weight block at every point is the whole weight matrix. -/
theorem blk1_apply (c : Dev nD) (t : Fin cfg0.N) (e : Fin 64) (q : Fin 64) :
    (iblk0 V c 1 t : Vec Ideal S64x64 .f32) (ix2 e q) = (V c main_arg3 : S64x64.Idx → EReal) (ix2 e q) := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t (0 : Fin 2) * 64 + 1 * e.val = e.val; rw [e0]; omega
  | ⟨1, _⟩ => show win0_1.index t (1 : Fin 2) * 64 + 1 * q.val = q.val; rw [e1]; omega

/-- The whole product of a feature matrix with a weight matrix, as the host spells it. -/
def product (D : DotDims S100000x64 S64x64 S100000x64) (X : FVec Ideal S100000x64 .f32) (W : FVec Ideal S64x64 .f32) :
    FVec Ideal S100000x64 .f32 :=
  Host.dotGeneral D none X W

/-- What point t writes back is block t of the whole product. -/
theorem flushed_eq (D : DotDims S100000x64 S64x64 S100000x64)
    (wf : DotDims.WF S100000x64 S64x64 S100000x64 [1] [0] [0] [1] [] []) (hD : D = plainDims 100000 64 64 wf)
    (c : Dev nD) (t : Fin cfg0.N) :
    (dat0 V c).flushed 2 t = ((cfg0.win 2).blk t).view.read (Elt Ideal)
      (product D (V c main_arg0) (V c main_arg3)) := by
  subst hD
  obtain ⟨-, -, -, -, e0, e1⟩ := idx_facts t
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  funext j
  obtain ⟨p, q, rfl⟩ : ∃ (p : Fin 5000) (q : Fin 64), (j : S5000x64.Idx) = ix2 p q := ⟨j 0, j 1, eq_ix2 j⟩
  have hemb : (((cfg0.win 2).blk t).view.emb (ix2 p q) : S100000x64.Idx) = ix2 ⟨t.val * 5000 + p.val, row_lt t p⟩ q := by
    funext a
    apply Fin.ext
    match a with
    | ⟨0, _⟩ => show win0_2.index t (0 : Fin 2) * 5000 + 1 * p.val = t.val * 5000 + p.val; rw [e0]; omega
    | ⟨1, _⟩ => show win0_2.index t (1 : Fin 2) * 64 + 1 * q.val = q.val; rw [e1]; omega
  show k0_pay1 (iblk0 V c 0 t) (iblk0 V c 1 t) (ix2 p q)
    = product (plainDims 100000 64 64 wf) (V c main_arg0) (V c main_arg3) (((cfg0.win 2).blk t).view.emb (ix2 p q))
  rw [hemb]
  refine (pay_apply (iblk0 V c 0 t) (iblk0 V c 1 t) p q).trans ?_
  unfold product
  refine Eq.trans ?_ (dotGeneral_plain_apply (φ₁ := .f32) (φ₂ := .f32) wf none _ (V c main_arg0) (V c main_arg3) ⟨t.val * 5000 + p.val, row_lt t p⟩ q).symm
  refine Finset.sum_congr rfl fun e _ => ?_
  rw [blk0_apply V c t p e, blk1_apply V c t e q]

/-- An index is in point t's result block iff its row lies in row block t. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every index of the result is in the block of the point its row block names. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 5000 < cfg0.N := lt_of_lt_of_eq (by omega : (i 0).val / 5000 < 20) N_0.symm
  obtain ⟨-, -, -, -, e0, e1⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e1]; omega

/-- The array the launch leaves is the whole product of the features with the weights as it found them. -/
theorem final (D : DotDims S100000x64 S64x64 S100000x64)
    (wf : DotDims.WF S100000x64 S64x64 S100000x64 [1] [0] [0] [1] [] []) (hD : D = plainDims 100000 64 64 wf) (c : Dev nD) :
    (dat0 V c).arrAt 2 cfg0.N = product D (V c main_arg0) (V c main_arg3) :=
  (dat0 V c).arrAt_eq_of_cover 2 _ (fun t _ => flushed_eq V D wf hD c t) cover

end Cert.KernelIdeal.Layer1

end
-- ==== Proof.Region1.lean ====
/-
  The second linear map, with the first layer's bias and clamp in front of it. The array the second launch leaves, for any
  contents of the buffers at its entry: every one of the twenty points adds the one-row bias to its block of 5000 rows,
  clamps at zero and multiplies by the whole 64 × 64 weight matrix, so entry (r, q) of the result is the sum over e of
  max(x (r, e) + β (0, e), 0) · w (e, q) — the plain product of the whole biased, clamped matrix with the weight matrix.
  Block t of the matrix is rows 5000 t … 5000 t + 4999, the bias and weight blocks are whole at every point, and the twenty
  output blocks tile the 100000 rows.
-/
import proofs.«174137_j66829691126193_1_alg».proof.Proof.Gen.KernelIdeal.Frame
import proofs.«174137_j66829691126193_1_alg».proof.Proof.LibRowMax
import proofs.«174137_j66829691126193_1_alg».proof.Proof.LibBiasRow
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.LibRowMax Cert.LibBiasRow

variable (V : (c : Dev nD) → (b : Ref sig .tc) → Buf (Elt Ideal) ((c : Thread nD τ).loc b))

theorem hz : (![0, 0] : Fin 2 → Nat) = fun _ => 0 := funext fun a => by fin_cases a <;> rfl

/-- The body's value at entry (p, q) of a block: the sum over e of max(x (p, e) + β (0, e), 0) · w (e, q). -/
theorem pay_apply (x0 : Vec Ideal S5000x64 .f32) (x1 : Vec Ideal S1x64 .f32) (x2 : Vec Ideal S64x64 .f32) (p : Fin 5000) (q : Fin 64) :
    k1_pay1 x0 x1 x2 (ix2 p q)
      = ∑ e : Fin 64, max (x0 (ix2 p e) + x1 (ix2 (0 : Fin 1) e)) (Ideal.ofBits .f32 0x00000000#32) * x2 (ix2 e q) := by
  unfold k1_pay1
  refine (matmul_plain_apply (a := 5000) (k := 64) (b := 64) (φ₁ := .bf16) (φ₂ := .bf16) dot_S5000x64_S64x64_S5000x64_1_0_0_1_n_n.wf none _ x2 p q).trans ?_
  refine Finset.sum_congr rfl fun e _ => ?_
  refine congrArg (· * x2 (ix2 e q)) ?_
  exact vector_bias_clamp_apply (a := 5000) (b := 64) x0 x1 _ _ _ p e

/-- Where each window's block sits at point t: the matrix and result blocks at row block t, bias and weights at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem row_lt (t : Fin cfg1.N) (p : Fin 5000) : t.val * 5000 + p.val < 100000 := by
  have h : t.val < 20 := lt_of_lt_of_eq t.isLt N_1
  have := p.isLt; omega

/-- The matrix block at point t is rows 5000 t … of the matrix. -/
theorem blk0_apply (c : Dev nD) (t : Fin cfg1.N) (p : Fin 5000) (e : Fin 64) :
    (iblk1 V c 0 t : Vec Ideal S5000x64 .f32) (ix2 p e)
      = (V c main_v45 : S100000x64.Idx → EReal) (ix2 ⟨t.val * 5000 + p.val, row_lt t p⟩ e) := by
  obtain ⟨e0, e1, -⟩ := idx_facts t
  unfold iblk1
  rw [View.read_apply]
  show V c main_v45 _ = V c main_v45 _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 64 + 1 * e.val = e.val; rw [e1]; omega

/-- The bias block at every point is the whole bias row. -/
theorem blk1_apply (c : Dev nD) (t : Fin cfg1.N) (u : Fin 1) (q : Fin 64) :
    (iblk1 V c 1 t : Vec Ideal S1x64 .f32) (ix2 u q) = (V c main_v46 : S1x64.Idx → EReal) (ix2 u q) := by
  obtain ⟨-, -, e0, e1, -⟩ := idx_facts t
  unfold iblk1
  rw [View.read_apply]
  show V c main_v46 _ = V c main_v46 _
  congr 1
  funext a
  apply Fin.ext
  match a with
  | ⟨0, _⟩ => show win1_1.index t (0 : Fin 2) * 1 + 1 * u.val = u.val; rw [e0]; omega
  | ⟨1, _⟩ => show win1_1.index t (1 : Fin 2) * 64 + 1 * q.val = q.val; rw [e1]; omega

/-- The weight block at every point is the whole weight matrix. -/
theorem blk2_apply (c : Dev nD) (t : Fin cfg1.N) (e : Fin 64) (q : Fin 64) :
    (iblk1 V c 2 t : Vec Ideal S64x64 .f32) (ix2 e q) = (V c main_arg5 : S64x64.Idx → EReal) (ix2 e q) := by
  obtain ⟨-, -, -, -, e0, e1, -⟩ := idx_facts t
  unfold iblk1
  rw [View.read_apply]
  show V c main_arg5 _ = V c main_arg5 _
  congr 1
  funext a
  apply Fin.ext
  match a with
  | ⟨0, _⟩ => show win1_2.index t (0 : Fin 2) * 64 + 1 * e.val = e.val; rw [e0]; omega
  | ⟨1, _⟩ => show win1_2.index t (1 : Fin 2) * 64 + 1 * q.val = q.val; rw [e1]; omega

/-- A matrix plus a bias row broadcast down its rows, clamped at zero, times a weight matrix, as the host spells it. -/
def biasClampProduct (D : DotDims S100000x64 S64x64 S100000x64) (h2 : S1x64.BroadcastsInDim S100000x64 ![0, 1])
    (h0 : S_.BroadcastsInDim S100000x64 ![]) (X : FVec Ideal S100000x64 .f32) (β : FVec Ideal S1x64 .f32)
    (W : FVec Ideal S64x64 .f32) : FVec Ideal S100000x64 .f32 :=
  Host.dotGeneral D none
    (maximumf (addf X (broadcastInDim S100000x64 ![0, 1] h2 β)) (broadcastInDim S100000x64 ![] h0 (constant S_ .f32 0x00000000#32))) W

/-- What point t writes back is block t of that whole product. -/
theorem flushed_eq (D : DotDims S100000x64 S64x64 S100000x64)
    (wf : DotDims.WF S100000x64 S64x64 S100000x64 [1] [0] [0] [1] [] []) (hD : D = plainDims 100000 64 64 wf)
    (h2 : S1x64.BroadcastsInDim S100000x64 ![0, 1]) (h0 : S_.BroadcastsInDim S100000x64 ![])
    (c : Dev nD) (t : Fin cfg1.N) :
    (dat1 V c).flushed 3 t = ((cfg1.win 3).blk t).view.read (Elt Ideal)
      (biasClampProduct D h2 h0 (V c main_v45) (V c main_v46) (V c main_arg5)) := by
  subst hD
  obtain ⟨-, -, -, -, -, -, e0, e1⟩ := idx_facts t
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x64) hz]
  funext j
  obtain ⟨p, q, rfl⟩ : ∃ (p : Fin 5000) (q : Fin 64), (j : S5000x64.Idx) = ix2 p q := ⟨j 0, j 1, eq_ix2 j⟩
  have hemb : (((cfg1.win 3).blk t).view.emb (ix2 p q) : S100000x64.Idx) = ix2 ⟨t.val * 5000 + p.val, row_lt t p⟩ q := by
    funext a
    apply Fin.ext
    match a with
    | ⟨0, _⟩ => show win1_3.index t (0 : Fin 2) * 5000 + 1 * p.val = t.val * 5000 + p.val; rw [e0]; omega
    | ⟨1, _⟩ => show win1_3.index t (1 : Fin 2) * 64 + 1 * q.val = q.val; rw [e1]; omega
  show k1_pay1 (iblk1 V c 0 t) (iblk1 V c 1 t) (iblk1 V c 2 t) (ix2 p q)
    = biasClampProduct (plainDims 100000 64 64 wf) h2 h0 (V c main_v45) (V c main_v46) (V c main_arg5) (((cfg1.win 3).blk t).view.emb (ix2 p q))
  rw [hemb]
  refine (pay_apply (iblk1 V c 0 t) (iblk1 V c 1 t) (iblk1 V c 2 t) p q).trans ?_
  unfold biasClampProduct
  refine Eq.trans ?_ (dotGeneral_plain_apply (φ₁ := .f32) (φ₂ := .f32) wf none _ _ (V c main_arg5) ⟨t.val * 5000 + p.val, row_lt t p⟩ q).symm
  refine Finset.sum_congr rfl fun e _ => ?_
  rw [host_bias_clamp_apply (a := 100000) (b := 64) (V c main_v45) (V c main_v46) h2 h0 ⟨t.val * 5000 + p.val, row_lt t p⟩ e,
    blk0_apply V c t p e, blk1_apply V c t 0 e, blk2_apply V c t e q]

/-- An index is in point t's result block iff its row lies in row block t. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v47).slice (win1_3.rect t)).set ↔ _
  rw [View.set_slice_whole, Rect.mem_set_unit]
  exact Iff.rfl

/-- Every index of the result is in the block of the point its row block names. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 5000 < cfg1.N := lt_of_lt_of_eq (by omega : (i 0).val / 5000 < 20) N_1.symm
  obtain ⟨-, -, -, -, -, -, e0, e1⟩ := idx_facts ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ (1 : Fin 2) * 64 ≤ (i 1).val ∧ (i 1).val < win1_3.index ⟨(i 0).val / 5000, ht⟩ (1 : Fin 2) * 64 + 64
    rw [e1]; omega

/-- The array the launch leaves: the matrix it found plus the bias row it found, clamped, times the weights it found. -/
theorem final (D : DotDims S100000x64 S64x64 S100000x64)
    (wf : DotDims.WF S100000x64 S64x64 S100000x64 [1] [0] [0] [1] [] []) (hD : D = plainDims 100000 64 64 wf)
    (h2 : S1x64.BroadcastsInDim S100000x64 ![0, 1]) (h0 : S_.BroadcastsInDim S100000x64 ![]) (c : Dev nD) :
    (dat1 V c).arrAt 3 cfg1.N = biasClampProduct D h2 h0 (V c main_v45) (V c main_v46) (V c main_arg5) :=
  (dat1 V c).arrAt_eq_of_cover 3 _ (fun t _ => flushed_eq V D wf hD h2 h0 c t) cover

end Cert.KernelIdeal.Layer2

end
-- ==== Proof.Region2.lean ====
/-
  The last node-wise map: bias and clamp. The array the third launch leaves, for any contents of the buffers at its entry:
  every one of the twenty points adds the one-row bias to its block of 5000 rows and clamps at zero, so entry (r, q) of the
  result is max(x (r, q) + β (0, q), 0) — the whole matrix plus the bias row broadcast down the rows, clamped. Block t of
  the matrix is rows 5000 t … 5000 t + 4999, the bias block is the whole row at every point, and the twenty output blocks
  tile the 100000 rows.
-/
import proofs.«174137_j66829691126193_1_alg».proof.Proof.Gen.KernelIdeal.Frame
import proofs.«174137_j66829691126193_1_alg».proof.Proof.LibBiasRow
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Clamp3

open Cert.KernelIdeal Cert.KernelIdeal.Gen Cert.LibBiasRow

variable (V : (c : Dev nD) → (b : Ref sig .tc) → Buf (Elt Ideal) ((c : Thread nD τ).loc b))

theorem hz : (![0, 0] : Fin 2 → Nat) = fun _ => 0 := funext fun a => by fin_cases a <;> rfl

/-- The body's value at entry (p, q) of a block: the entry plus the bias at column q, clamped at zero. -/
theorem pay_apply (x0 : Vec Ideal S5000x64 .f32) (x1 : Vec Ideal S1x64 .f32) (p : Fin 5000) (q : Fin 64) :
    k2_pay1 x0 x1 (ix2 p q) = max (x0 (ix2 p q) + x1 (ix2 (0 : Fin 1) q)) (Ideal.ofBits .f32 0x00000000#32) := by
  unfold k2_pay1
  exact vector_bias_clamp_apply (a := 5000) (b := 64) x0 x1 _ _ _ p q

/-- Where each window's block sits at point t: the matrix and result blocks at row block t, the bias row at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem row_lt (t : Fin cfg2.N) (p : Fin 5000) : t.val * 5000 + p.val < 100000 := by
  have h : t.val < 20 := lt_of_lt_of_eq t.isLt N_2
  have := p.isLt; omega

/-- The matrix block at point t is rows 5000 t … of the matrix. -/
theorem blk0_apply (c : Dev nD) (t : Fin cfg2.N) (p : Fin 5000) (e : Fin 64) :
    (iblk2 V c 0 t : Vec Ideal S5000x64 .f32) (ix2 p e)
      = (V c main_v60 : S100000x64.Idx → EReal) (ix2 ⟨t.val * 5000 + p.val, row_lt t p⟩ e) := by
  obtain ⟨e0, e1, -⟩ := idx_facts t
  unfold iblk2
  rw [View.read_apply]
  show V c main_v60 _ = V c main_v60 _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 64 + 1 * e.val = e.val; rw [e1]; omega

/-- The bias block at every point is the whole bias row. -/
theorem blk1_apply (c : Dev nD) (t : Fin cfg2.N) (u : Fin 1) (q : Fin 64) :
    (iblk2 V c 1 t : Vec Ideal S1x64 .f32) (ix2 u q) = (V c main_v61 : S1x64.Idx → EReal) (ix2 u q) := by
  obtain ⟨-, -, e0, e1, -⟩ := idx_facts t
  unfold iblk2
  rw [View.read_apply]
  show V c main_v61 _ = V c main_v61 _
  congr 1
  funext a
  apply Fin.ext
  match a with
  | ⟨0, _⟩ => show win2_1.index t (0 : Fin 2) * 1 + 1 * u.val = u.val; rw [e0]; omega
  | ⟨1, _⟩ => show win2_1.index t (1 : Fin 2) * 64 + 1 * q.val = q.val; rw [e1]; omega

/-- A matrix plus a bias row broadcast down its rows, clamped at zero, as the host spells it. -/
def biasClamp (h2 : S1x64.BroadcastsInDim S100000x64 ![0, 1]) (h0 : S_.BroadcastsInDim S100000x64 ![])
    (X : FVec Ideal S100000x64 .f32) (β : FVec Ideal S1x64 .f32) : FVec Ideal S100000x64 .f32 :=
  maximumf (addf X (broadcastInDim S100000x64 ![0, 1] h2 β)) (broadcastInDim S100000x64 ![] h0 (constant S_ .f32 0x00000000#32))

/-- What point t writes back is block t of the whole biased, clamped matrix. -/
theorem flushed_eq (h2 : S1x64.BroadcastsInDim S100000x64 ![0, 1]) (h0 : S_.BroadcastsInDim S100000x64 ![])
    (c : Dev nD) (t : Fin cfg2.N) :
    (dat2 V c).flushed 2 t = ((cfg2.win 2).blk t).view.read (Elt Ideal)
      (biasClamp h2 h0 (V c main_v60) (V c main_v61)) := by
  obtain ⟨-, -, -, -, e0, e1⟩ := idx_facts t
  show (cfg2.win 2).cut (grid2.coords t) ((dat2 V c).after 2 t) = _
  rw [after2_2]
  unfold out2_2
  rw [View.canon_unit_zero hz]
  simp only [View.ld_unit_zero (S := S5000x64) hz, View.ld_unit_zero (S := S1x64) hz]
  funext j
  obtain ⟨p, q, rfl⟩ : ∃ (p : Fin 5000) (q : Fin 64), (j : S5000x64.Idx) = ix2 p q := ⟨j 0, j 1, eq_ix2 j⟩
  have hemb : (((cfg2.win 2).blk t).view.emb (ix2 p q) : S100000x64.Idx) = ix2 ⟨t.val * 5000 + p.val, row_lt t p⟩ q := by
    funext a
    apply Fin.ext
    match a with
    | ⟨0, _⟩ => show win2_2.index t (0 : Fin 2) * 5000 + 1 * p.val = t.val * 5000 + p.val; rw [e0]; omega
    | ⟨1, _⟩ => show win2_2.index t (1 : Fin 2) * 64 + 1 * q.val = q.val; rw [e1]; omega
  show k2_pay1 (iblk2 V c 0 t) (iblk2 V c 1 t) (ix2 p q)
    = biasClamp h2 h0 (V c main_v60) (V c main_v61) (((cfg2.win 2).blk t).view.emb (ix2 p q))
  rw [hemb]
  refine (pay_apply (iblk2 V c 0 t) (iblk2 V c 1 t) p q).trans ?_
  unfold biasClamp
  refine Eq.trans ?_ (host_bias_clamp_apply (a := 100000) (b := 64) (V c main_v60) (V c main_v61) h2 h0 ⟨t.val * 5000 + p.val, row_lt t p⟩ q).symm
  rw [blk0_apply V c t p q, blk1_apply V c t 0 q]

/-- An index is in point t's result block iff its row lies in row block t. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v62).slice (win2_2.rect t)).set ↔ _
  rw [View.set_slice_whole, Rect.mem_set_unit]
  exact Iff.rfl

/-- Every index of the result is in the block of the point its row block names. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 5000 < cfg2.N := lt_of_lt_of_eq (by omega : (i 0).val / 5000 < 20) N_2.symm
  obtain ⟨-, -, -, -, e0, e1⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e1]; omega

/-- The array the launch leaves is the whole matrix it found plus the bias row it found, clamped at zero. -/
theorem final (h2 : S1x64.BroadcastsInDim S100000x64 ![0, 1]) (h0 : S_.BroadcastsInDim S100000x64 ![]) (c : Dev nD) :
    (dat2 V c).arrAt 2 cfg2.N
      = biasClamp h2 h0 (V c main_v60) (V c main_v61) :=
  (dat2 V c).arrAt_eq_of_cover 2 _ (fun t _ => flushed_eq V h2 h0 c t) cover

end Cert.KernelIdeal.Clamp3

end
-- ==== Proof.Region3.lean ====
/-
  The read-out head. The array the fourth launch leaves, for any contents of the buffers at its entry: its one point takes
  the whole 128 × 64 pooled matrix g, the two weight matrices and the two one-row biases, and stores
  (max(g · w1 + β1, 0)) · w2 + β2, so entry (p, q) of the result is
  Σ_e max(Σ_e' g (p, e') · w1 (e', e) + β1 (0, e), 0) · w2 (e, q) + β2 (0, q).
  Every window's one block is its whole array, and the one output block is the whole result.
-/
import proofs.«174137_j66829691126193_1_alg».proof.Proof.Gen.KernelIdeal.Frame
import proofs.«174137_j66829691126193_1_alg».proof.Proof.LibRowMax
import proofs.«174137_j66829691126193_1_alg».proof.Proof.LibBiasRow
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Head

open Cert.KernelIdeal Cert.KernelIdeal.Gen Cert.LibRowMax Cert.LibBiasRow

variable (V : (c : Dev nD) → (b : Ref sig .tc) → Buf (Elt Ideal) ((c : Thread nD τ).loc b))

theorem hz : (![0, 0] : Fin 2 → Nat) = fun _ => 0 := funext fun a => by fin_cases a <;> rfl

/-- The head's value at an entry, from the entries of its five operands. -/
def entry (g : S128x64.Idx → EReal) (w1 : S64x64.Idx → EReal) (β1 : S1x64.Idx → EReal) (w2 : S64x1.Idx → EReal)
    (β2 : S1x1.Idx → EReal) (p : Fin 128) (q : Fin 1) : EReal :=
  (∑ e : Fin 64, max ((∑ e' : Fin 64, g (ix2 p e') * w1 (ix2 e' e)) + β1 (ix2 (0 : Fin 1) e)) (Ideal.ofBits .f32 0x00000000#32)
      * w2 (ix2 e q)) + β2 (ix2 (0 : Fin 1) q)

/-- The body's value at entry (p, q). -/
theorem pay_apply (g : Vec Ideal S128x64 .f32) (w1 : Vec Ideal S64x64 .f32) (b1 : Vec Ideal S1x64 .f32)
    (w2 : Vec Ideal S64x1 .f32) (b2 : Vec Ideal S1x1 .f32) (p : Fin 128) (q : Fin 1) :
    k3_pay1 g w1 b1 w2 b2 (ix2 p q) = entry g w1 b1 w2 b2 p q := by
  unfold k3_pay1 entry
  refine (vector_bias_apply (a := 128) (b := 1) _ b2 _ _ p q).trans ?_
  refine congrArg (· + b2 (ix2 (0 : Fin 1) q)) ?_
  refine (matmul_plain_apply (a := 128) (k := 64) (b := 1) (φ₁ := .bf16) (φ₂ := .bf16) dot_S128x64_S64x1_S128x1_1_0_0_1_n_n.wf none _ w2 p q).trans ?_
  refine Finset.sum_congr rfl fun e _ => ?_
  refine congrArg (· * w2 (ix2 e q)) ?_
  show max (_ + _) (Ideal.ofBits .f32 0x00000000#32) = _
  refine congrArg (fun z => max z (Ideal.ofBits .f32 0x00000000#32)) ?_
  refine congrArg₂ (· + ·) ?_ ?_
  · refine (matmul_plain_apply (a := 128) (k := 64) (b := 64) (φ₁ := .bf16) (φ₂ := .bf16) dot_S128x64_S64x64_S128x64_1_0_0_1_n_n.wf none _ w1 p e).trans ?_
    refine Finset.sum_congr rfl fun e' _ => ?_
    show shapeCast S128x64 g _ (ix2 p e') * w1 (ix2 e' e) = _
    rw [shapeCast_self]
  · rw [shapeCast_self]
    exact broadcastTo_1b_ab_apply b1 _ p e

/-- The head as the host spells it: two plain products, each followed by a bias row broadcast down the rows, the first
    clamped at zero. -/
def head (D1 : DotDims S128x64 S64x64 S128x64) (D2 : DotDims S128x64 S64x1 S128x1)
    (h2 : S1x64.BroadcastsInDim S128x64 ![0, 1]) (h0 : S_.BroadcastsInDim S128x64 ![]) (h2' : S1x1.BroadcastsInDim S128x1 ![0, 1])
    (g : FVec Ideal S128x64 .f32) (w1 : FVec Ideal S64x64 .f32) (β1 : FVec Ideal S1x64 .f32) (w2 : FVec Ideal S64x1 .f32)
    (β2 : FVec Ideal S1x1 .f32) : FVec Ideal S128x1 .f32 :=
  addf (Host.dotGeneral D2 none
      (maximumf (addf (Host.dotGeneral D1 none g w1) (broadcastInDim S128x64 ![0, 1] h2 β1))
        (broadcastInDim S128x64 ![] h0 (constant S_ .f32 0x00000000#32))) w2)
    (broadcastInDim S128x1 ![0, 1] h2' β2)

/-- The host's spelling at entry (p, q). -/
theorem head_apply (D1 : DotDims S128x64 S64x64 S128x64) (D2 : DotDims S128x64 S64x1 S128x1)
    (wf1 : DotDims.WF S128x64 S64x64 S128x64 [1] [0] [0] [1] [] []) (hD1 : D1 = plainDims 128 64 64 wf1)
    (wf2 : DotDims.WF S128x64 S64x1 S128x1 [1] [0] [0] [1] [] []) (hD2 : D2 = plainDims 128 64 1 wf2)
    (h2 : S1x64.BroadcastsInDim S128x64 ![0, 1]) (h0 : S_.BroadcastsInDim S128x64 ![]) (h2' : S1x1.BroadcastsInDim S128x1 ![0, 1])
    (g : FVec Ideal S128x64 .f32) (w1 : FVec Ideal S64x64 .f32) (β1 : FVec Ideal S1x64 .f32) (w2 : FVec Ideal S64x1 .f32)
    (β2 : FVec Ideal S1x1 .f32) (p : Fin 128) (q : Fin 1) :
    head D1 D2 h2 h0 h2' g w1 β1 w2 β2 (ix2 p q) = entry g w1 β1 w2 β2 p q := by
  subst hD1 hD2
  unfold head entry
  refine (host_bias_apply (a := 128) (b := 1) _ β2 h2' p q).trans ?_
  refine congrArg (· + β2 (ix2 (0 : Fin 1) q)) ?_
  refine (dotGeneral_plain_apply (φ₁ := .f32) (φ₂ := .f32) wf2 none _ _ w2 p q).trans ?_
  refine Finset.sum_congr rfl fun e _ => ?_
  refine congrArg (· * w2 (ix2 e q)) ?_
  refine (host_bias_clamp_apply (a := 128) (b := 64) _ β1 h2 h0 p e).trans ?_
  refine congrArg (fun z => max (z + β1 (ix2 (0 : Fin 1) e)) (Ideal.ofBits .f32 0x00000000#32)) ?_
  exact dotGeneral_plain_apply (φ₁ := .f32) (φ₂ := .f32) wf1 none _ g w1 p e

/-- Every window's block at the one point sits at the origin. -/
theorem idx_facts : ∀ (t : Fin cfg3.N) (a : Fin 2), win3_0.index t a = 0 ∧ win3_1.index t a = 0 ∧ win3_2.index t a = 0
    ∧ win3_3.index t a = 0 ∧ win3_4.index t a = 0 ∧ win3_5.index t a = 0 :=
  (by decide +kernel : ∀ (t : Fin grid3.N) (a : Fin 2), _)

/-- The pooled matrix's block is the whole matrix. -/
theorem blk0_eq (c : Dev nD) (t : Fin cfg3.N) : (iblk3 V c 0 t : Vec Ideal S128x64 .f32) = V c main_v65 := by
  funext j
  unfold iblk3
  rw [View.read_apply]
  show V c main_v65 _ = V c main_v65 j
  congr 1
  funext a
  apply Fin.ext
  match a with
  | ⟨0, _⟩ => show win3_0.index t (0 : Fin 2) * 128 + 1 * (j 0).val = (j 0).val; rw [(idx_facts t 0).1]; omega
  | ⟨1, _⟩ => show win3_0.index t (1 : Fin 2) * 64 + 1 * (j 1).val = (j 1).val; rw [(idx_facts t 1).1]; omega

/-- The first weight block is the whole matrix. -/
theorem blk1_eq (c : Dev nD) (t : Fin cfg3.N) : (iblk3 V c 1 t : Vec Ideal S64x64 .f32) = V c main_arg7 := by
  funext j
  unfold iblk3
  rw [View.read_apply]
  show V c main_arg7 _ = V c main_arg7 j
  congr 1
  funext a
  apply Fin.ext
  match a with
  | ⟨0, _⟩ => show win3_1.index t (0 : Fin 2) * 64 + 1 * (j 0).val = (j 0).val; rw [(idx_facts t 0).2.1]; omega
  | ⟨1, _⟩ => show win3_1.index t (1 : Fin 2) * 64 + 1 * (j 1).val = (j 1).val; rw [(idx_facts t 1).2.1]; omega

/-- The first bias block is the whole row. -/
theorem blk2_eq (c : Dev nD) (t : Fin cfg3.N) : (iblk3 V c 2 t : Vec Ideal S1x64 .f32) = V c main_v66 := by
  funext j
  unfold iblk3
  rw [View.read_apply]
  show V c main_v66 _ = V c main_v66 j
  congr 1
  funext a
  apply Fin.ext
  match a with
  | ⟨0, _⟩ => show win3_2.index t (0 : Fin 2) * 1 + 1 * (j 0).val = (j 0).val; rw [(idx_facts t 0).2.2.1]; omega
  | ⟨1, _⟩ => show win3_2.index t (1 : Fin 2) * 64 + 1 * (j 1).val = (j 1).val; rw [(idx_facts t 1).2.2.1]; omega

/-- The second weight block is the whole column matrix. -/
theorem blk3_eq (c : Dev nD) (t : Fin cfg3.N) : (iblk3 V c 3 t : Vec Ideal S64x1 .f32) = V c main_arg9 := by
  funext j
  unfold iblk3
  rw [View.read_apply]
  show V c main_arg9 _ = V c main_arg9 j
  congr 1
  funext a
  apply Fin.ext
  match a with
  | ⟨0, _⟩ => show win3_3.index t (0 : Fin 2) * 64 + 1 * (j 0).val = (j 0).val; rw [(idx_facts t 0).2.2.2.1]; omega
  | ⟨1, _⟩ => show win3_3.index t (1 : Fin 2) * 1 + 1 * (j 1).val = (j 1).val; rw [(idx_facts t 1).2.2.2.1]; omega

/-- The second bias block is the whole one-entry row. -/
theorem blk4_eq (c : Dev nD) (t : Fin cfg3.N) : (iblk3 V c 4 t : Vec Ideal S1x1 .f32) = V c main_v67 := by
  funext j
  unfold iblk3
  rw [View.read_apply]
  show V c main_v67 _ = V c main_v67 j
  congr 1
  funext a
  apply Fin.ext
  match a with
  | ⟨0, _⟩ => show win3_4.index t (0 : Fin 2) * 1 + 1 * (j 0).val = (j 0).val; rw [(idx_facts t 0).2.2.2.2.1]; omega
  | ⟨1, _⟩ => show win3_4.index t (1 : Fin 2) * 1 + 1 * (j 1).val = (j 1).val; rw [(idx_facts t 1).2.2.2.2.1]; omega

/-- What the one point writes back is the one block — the whole — of the head of the arrays the launch found. -/
theorem flushed_eq (D1 : DotDims S128x64 S64x64 S128x64) (D2 : DotDims S128x64 S64x1 S128x1)
    (wf1 : DotDims.WF S128x64 S64x64 S128x64 [1] [0] [0] [1] [] []) (hD1 : D1 = plainDims 128 64 64 wf1)
    (wf2 : DotDims.WF S128x64 S64x1 S128x1 [1] [0] [0] [1] [] []) (hD2 : D2 = plainDims 128 64 1 wf2)
    (h2 : S1x64.BroadcastsInDim S128x64 ![0, 1]) (h0 : S_.BroadcastsInDim S128x64 ![]) (h2' : S1x1.BroadcastsInDim S128x1 ![0, 1])
    (c : Dev nD) (t : Fin cfg3.N) :
    (dat3 V c).flushed 5 t = ((cfg3.win 5).blk t).view.read (Elt Ideal)
      (head D1 D2 h2 h0 h2' (V c main_v65) (V c main_arg7) (V c main_v66) (V c main_arg9) (V c main_v67)) := by
  show (cfg3.win 5).cut (grid3.coords t) ((dat3 V c).after 5 t) = _
  rw [after3_5]
  unfold out3_5
  rw [View.canon_unit_zero hz]
  simp only [View.ld_unit_zero (S := S128x64) hz, View.ld_unit_zero (S := S64x64) hz, View.ld_unit_zero (S := S1x64) hz,
    View.ld_unit_zero (S := S64x1) hz, View.ld_unit_zero (S := S1x1) hz]
  rw [blk0_eq V c t, blk1_eq V c t, blk2_eq V c t, blk3_eq V c t, blk4_eq V c t]
  funext j
  obtain ⟨p, q, rfl⟩ : ∃ (p : Fin 128) (q : Fin 1), (j : S128x1.Idx) = ix2 p q := ⟨j 0, j 1, eq_ix2 j⟩
  have hemb : (((cfg3.win 5).blk t).view.emb (ix2 p q) : S128x1.Idx) = ix2 p q := by
    funext a
    apply Fin.ext
    match a with
    | ⟨0, _⟩ => show win3_5.index t (0 : Fin 2) * 128 + 1 * p.val = p.val; rw [(idx_facts t 0).2.2.2.2.2]; omega
    | ⟨1, _⟩ => show win3_5.index t (1 : Fin 2) * 1 + 1 * q.val = q.val; rw [(idx_facts t 1).2.2.2.2.2]; omega
  show k3_pay1 (V c main_v65) (V c main_arg7) (V c main_v66) (V c main_arg9) (V c main_v67) (ix2 p q)
    = head D1 D2 h2 h0 h2' (V c main_v65) (V c main_arg7) (V c main_v66) (V c main_arg9) (V c main_v67) (((cfg3.win 5).blk t).view.emb (ix2 p q))
  rw [hemb]
  exact (pay_apply (V c main_v65) (V c main_arg7) (V c main_v66) (V c main_arg9) (V c main_v67) p q).trans
    (head_apply D1 D2 wf1 hD1 wf2 hD2 h2 h0 h2' (V c main_v65) (V c main_arg7) (V c main_v66) (V c main_arg9) (V c main_v67) p q).symm

/-- An index is in the one point's result block iff each coordinate is in range: always. -/
theorem mem_blk (t : Fin cfg3.N) (i : S128x1.Idx) :
    i ∈ ((cfg3.win 5).blk t).view.set ↔ ∀ a : Fin 2, win3_5.index t a * S128x1.size a ≤ (i a).val ∧ (i a).val < win3_5.index t a * S128x1.size a + S128x1.size a := by
  show i ∈ ((View.whole main_v68).slice (win3_5.rect t)).set ↔ _
  rw [View.set_slice_whole, Rect.mem_set_unit]
  exact Iff.rfl

/-- Every index of the result is in the one point's block. -/
theorem cover (i : S128x1.Idx) : ∃ t : Fin cfg3.N, (cfg3.win 5).flush t = true ∧ i ∈ ((cfg3.win 5).blk t).view.set := by
  have hi0 : (i 0).val < 128 := (i 0).isLt
  have hi1 : (i 1).val < 1 := (i 1).isLt
  refine ⟨t3_0, flush3_5 _, ?_⟩
  rw [mem_blk]
  intro a
  match a with
  | ⟨0, _⟩ =>
    show win3_5.index t3_0 (0 : Fin 2) * 128 ≤ (i 0).val ∧ (i 0).val < win3_5.index t3_0 (0 : Fin 2) * 128 + 128
    rw [(idx_facts t3_0 0).2.2.2.2.2]; omega
  | ⟨1, _⟩ =>
    show win3_5.index t3_0 (1 : Fin 2) * 1 ≤ (i 1).val ∧ (i 1).val < win3_5.index t3_0 (1 : Fin 2) * 1 + 1
    rw [(idx_facts t3_0 1).2.2.2.2.2]; omega

/-- The array the launch leaves is the head of the five arrays it found. -/
theorem final (D1 : DotDims S128x64 S64x64 S128x64) (D2 : DotDims S128x64 S64x1 S128x1)
    (wf1 : DotDims.WF S128x64 S64x64 S128x64 [1] [0] [0] [1] [] []) (hD1 : D1 = plainDims 128 64 64 wf1)
    (wf2 : DotDims.WF S128x64 S64x1 S128x1 [1] [0] [0] [1] [] []) (hD2 : D2 = plainDims 128 64 1 wf2)
    (h2 : S1x64.BroadcastsInDim S128x64 ![0, 1]) (h0 : S_.BroadcastsInDim S128x64 ![]) (h2' : S1x1.BroadcastsInDim S128x1 ![0, 1])
    (c : Dev nD) :
    (dat3 V c).arrAt 5 cfg3.N
      = head D1 D2 h2 h0 h2' (V c main_v65) (V c main_arg7) (V c main_v66) (V c main_arg9) (V c main_v67) :=
  (dat3 V c).arrAt_eq_of_cover 5 _ (fun t _ => flushed_eq V D1 D2 wf1 hD1 wf2 hD2 h2 h0 h2' c t) cover

end Cert.KernelIdeal.Head

end
-- ==== Proof.KernelValue.lean ====
/-
  The idealized kernel's result as one function of its arguments. Walking its chain of segments from the launch: the
  three first stretches leave the edge sources, targets and weights at the reference's stages; the first launch leaves
  x · W1; the next stretch aggregates it over the edges and turns the first bias into a row; the second launch leaves
  max(agg + b1, 0) · W2; the next stretch aggregates again and turns the second bias into a row; the third launch leaves
  max(agg + b2, 0); the last stretch pools the rows by graph and turns the head's biases into rows; the last launch leaves
  the head of the pooled matrix. At every boundary the buffers read later hold the reference's stages of the same
  arguments (the reference computes the edge normalisation twice, to the same values), and a buffer nothing wrote
  since the launch still holds its argument. So the result buffer ends at the reference's last stage.
-/
import proofs.«174137_j66829691126193_1_alg».proof.Proof.Gen.KernelIdeal.Frame
import proofs.«174137_j66829691126193_1_alg».proof.Proof.HostStretches
import proofs.«174137_j66829691126193_1_alg».proof.Proof.Region0
import proofs.«174137_j66829691126193_1_alg».proof.Proof.Region1
import proofs.«174137_j66829691126193_1_alg».proof.Proof.Region2
import proofs.«174137_j66829691126193_1_alg».proof.Proof.Region3
import proofs.«174137_j66829691126193_1_alg».proof.Proof.RefRead

noncomputable section

namespace Cert.KernelIdeal.Result

open Cert.KernelIdeal Cert.KernelIdeal.Gen Idealize.ShloMosaic Idealize.ShloMosaic.TcCoe Idealize.SL.Sem Idealize.ShloMosaic.StableHlo
open Cert.KernelIdeal.Stretch Cert.ReferenceIdeal.ReadP Cert.LibRowMax

variable (m : (ℓ : Loc nD τ sig) → Buf (Elt Ideal) ℓ) (ρ : Dev nD → PrngReg) (c : Dev nD)

/-! ## A buffer nothing has written yet holds what it held one boundary earlier -/

/-- The arrays of the first launch's windows. -/
def arr0 : List (Ref sig .tc) := [main_arg0, main_arg3, main_v32]
/-- The arrays of the second launch's windows. -/
def arr1 : List (Ref sig .tc) := [main_v45, main_v46, main_arg5, main_v47]
/-- The arrays of the third launch's windows. -/
def arr2 : List (Ref sig .tc) := [main_v60, main_v61, main_v62]

theorem arr0_mem : ∀ w : Fin cfg0.W, Pipeline.arrRef spec0 w ∈ arr0 := by decide
theorem arr1_mem : ∀ w : Fin cfg1.W, Pipeline.arrRef spec1 w ∈ arr1 := by decide
theorem arr2_mem : ∀ w : Fin cfg2.W, Pipeline.arrRef spec2 w ∈ arr2 := by decide

theorem s1 (r : Ref sig .tc) (h : r ∉ writes0) : W1 m ρ c (Proc.devRef .tc r) = W0 m ρ c (Proc.devRef .tc r) := keep0 (W0 m ρ c) r h
theorem s2 (r : Ref sig .tc) (h : r ∉ writes0_1) : W2 m ρ c (Proc.devRef .tc r) = W1 m ρ c (Proc.devRef .tc r) := keep0_1 (W1 m ρ c) r h
theorem s3 (r : Ref sig .tc) (h : r ∉ writes0_2) : W3 m ρ c (Proc.devRef .tc r) = W2 m ρ c (Proc.devRef .tc r) := keep0_2 (W2 m ρ c) r h
theorem s4 (r : Ref sig .tc) (h : r ∉ arr0) : W4 m ρ c (Proc.devRef .tc r) = W3 m ρ c (Proc.devRef .tc r) :=
  W4_of_ne m ρ c r fun w e => h (e ▸ arr0_mem w)
theorem s5 (r : Ref sig .tc) (h : r ∉ writes1) : W5 m ρ c (Proc.devRef .tc r) = W4 m ρ c (Proc.devRef .tc r) := keep1 (W4 m ρ c) r h
theorem s6 (r : Ref sig .tc) (h : r ∉ arr1) : W6 m ρ c (Proc.devRef .tc r) = W5 m ρ c (Proc.devRef .tc r) :=
  W6_of_ne m ρ c r fun w e => h (e ▸ arr1_mem w)
theorem s7 (r : Ref sig .tc) (h : r ∉ writes2) : W7 m ρ c (Proc.devRef .tc r) = W6 m ρ c (Proc.devRef .tc r) := keep2 (W6 m ρ c) r h
theorem s8 (r : Ref sig .tc) (h : r ∉ arr2) : W8 m ρ c (Proc.devRef .tc r) = W7 m ρ c (Proc.devRef .tc r) :=
  W8_of_ne m ρ c r fun w e => h (e ▸ arr2_mem w)
theorem s9 (r : Ref sig .tc) (h : r ∉ writes3) : W9 m ρ c (Proc.devRef .tc r) = W8 m ρ c (Proc.devRef .tc r) := keep3 (W8 m ρ c) r h

/-! ## An argument nothing has written holds its launch contents at every boundary -/

theorem k3 (r : Ref sig .tc) (h0 : r ∉ writes0) (h1 : r ∉ writes0_1) (h2 : r ∉ writes0_2) :
    W3 m ρ c (Proc.devRef .tc r) = m ((c : Thread nD τ).loc r) :=
  (s3 m ρ c r h2).trans ((s2 m ρ c r h1).trans ((s1 m ρ c r h0).trans rfl))
theorem k4 (r : Ref sig .tc) (h0 : r ∉ writes0) (h1 : r ∉ writes0_1) (h2 : r ∉ writes0_2) (h3 : r ∉ arr0) :
    W4 m ρ c (Proc.devRef .tc r) = m ((c : Thread nD τ).loc r) := (s4 m ρ c r h3).trans (k3 m ρ c r h0 h1 h2)
theorem k5 (r : Ref sig .tc) (h0 : r ∉ writes0) (h1 : r ∉ writes0_1) (h2 : r ∉ writes0_2) (h3 : r ∉ arr0) (h4 : r ∉ writes1) :
    W5 m ρ c (Proc.devRef .tc r) = m ((c : Thread nD τ).loc r) := (s5 m ρ c r h4).trans (k4 m ρ c r h0 h1 h2 h3)
theorem k6 (r : Ref sig .tc) (h0 : r ∉ writes0) (h1 : r ∉ writes0_1) (h2 : r ∉ writes0_2) (h3 : r ∉ arr0) (h4 : r ∉ writes1)
    (h5 : r ∉ arr1) : W6 m ρ c (Proc.devRef .tc r) = m ((c : Thread nD τ).loc r) := (s6 m ρ c r h5).trans (k5 m ρ c r h0 h1 h2 h3 h4)
theorem k7 (r : Ref sig .tc) (h0 : r ∉ writes0) (h1 : r ∉ writes0_1) (h2 : r ∉ writes0_2) (h3 : r ∉ arr0) (h4 : r ∉ writes1)
    (h5 : r ∉ arr1) (h6 : r ∉ writes2) : W7 m ρ c (Proc.devRef .tc r) = m ((c : Thread nD τ).loc r) :=
  (s7 m ρ c r h6).trans (k6 m ρ c r h0 h1 h2 h3 h4 h5)
theorem k8 (r : Ref sig .tc) (h0 : r ∉ writes0) (h1 : r ∉ writes0_1) (h2 : r ∉ writes0_2) (h3 : r ∉ arr0) (h4 : r ∉ writes1)
    (h5 : r ∉ arr1) (h6 : r ∉ writes2) (h7 : r ∉ arr2) : W8 m ρ c (Proc.devRef .tc r) = m ((c : Thread nD τ).loc r) :=
  (s8 m ρ c r h7).trans (k7 m ρ c r h0 h1 h2 h3 h4 h5 h6)
theorem k9 (r : Ref sig .tc) (h0 : r ∉ writes0) (h1 : r ∉ writes0_1) (h2 : r ∉ writes0_2) (h3 : r ∉ arr0) (h4 : r ∉ writes1)
    (h5 : r ∉ arr1) (h6 : r ∉ writes2) (h7 : r ∉ arr2) (h8 : r ∉ writes3) : W9 m ρ c (Proc.devRef .tc r) = m ((c : Thread nD τ).loc r) :=
  (s9 m ρ c r h8).trans (k8 m ρ c r h0 h1 h2 h3 h4 h5 h6 h7)

/-! ## The edge sources, targets and weights at the first launch's entry, and carried past it -/

theorem w3_v5 : W3 m ρ c (Proc.devRef .tc main_v5) = val_main_v5 (F := Ideal) (m ((c : Thread nD τ).loc main_arg1)) :=
  (s3 m ρ c main_v5 (by decide)).trans ((s2 m ρ c main_v5 (by decide)).trans (A0_v5 (W0 m ρ c)))
theorem w3_v6 : W3 m ρ c (Proc.devRef .tc main_v6) = val_main_v6 (F := Ideal) (m ((c : Thread nD τ).loc main_arg1)) :=
  (s3 m ρ c main_v6 (by decide)).trans ((s2 m ρ c main_v6 (by decide)).trans (A0_v6 (W0 m ρ c)))
theorem w2_v16 : W2 m ρ c (Proc.devRef .tc main_v16) = val_main_v16 (F := Ideal) (m ((c : Thread nD τ).loc main_arg1)) := by
  refine (A1_v16 (W1 m ρ c)).trans ?_
  rw [show W1 m ρ c (Proc.devRef .tc main_v12) = val_main_v12 (F := Ideal) (m ((c : Thread nD τ).loc main_arg1)) from A0_v12 (W0 m ρ c),
    show W1 m ρ c (Proc.devRef .tc main_v15) = val_main_v15 (F := Ideal) (m ((c : Thread nD τ).loc main_arg1)) from A0_v15 (W0 m ρ c),
    show W1 m ρ c (Proc.devRef .tc main_cst_3) = val_main_cst_3 (F := Ideal) from A0_cst3 (W0 m ρ c)]
  exact whereK_eq _
theorem w3_v31 : W3 m ρ c (Proc.devRef .tc main_v31) = val_main_v31 (F := Ideal) (m ((c : Thread nD τ).loc main_arg1)) :=
  A2_v31 (W2 m ρ c) _ ((s2 m ρ c main_v5 (by decide)).trans (A0_v5 (W0 m ρ c)))
    ((s2 m ρ c main_v6 (by decide)).trans (A0_v6 (W0 m ρ c))) (w2_v16 m ρ c)

theorem w4_v5 : W4 m ρ c (Proc.devRef .tc main_v5) = val_main_v5 (F := Ideal) (m ((c : Thread nD τ).loc main_arg1)) := (s4 m ρ c main_v5 (by decide)).trans (w3_v5 m ρ c)
theorem w4_v6 : W4 m ρ c (Proc.devRef .tc main_v6) = val_main_v6 (F := Ideal) (m ((c : Thread nD τ).loc main_arg1)) := (s4 m ρ c main_v6 (by decide)).trans (w3_v6 m ρ c)
theorem w4_v31 : W4 m ρ c (Proc.devRef .tc main_v31) = val_main_v31 (F := Ideal) (m ((c : Thread nD τ).loc main_arg1)) := (s4 m ρ c main_v31 (by decide)).trans (w3_v31 m ρ c)
theorem w6_v5 : W6 m ρ c (Proc.devRef .tc main_v5) = val_main_v5 (F := Ideal) (m ((c : Thread nD τ).loc main_arg1)) :=
  (s6 m ρ c main_v5 (by decide)).trans ((s5 m ρ c main_v5 (by decide)).trans (w4_v5 m ρ c))
theorem w6_v6 : W6 m ρ c (Proc.devRef .tc main_v6) = val_main_v6 (F := Ideal) (m ((c : Thread nD τ).loc main_arg1)) :=
  (s6 m ρ c main_v6 (by decide)).trans ((s5 m ρ c main_v6 (by decide)).trans (w4_v6 m ρ c))
theorem w6_v31 : W6 m ρ c (Proc.devRef .tc main_v31) = val_main_v31 (F := Ideal) (m ((c : Thread nD τ).loc main_arg1)) :=
  (s6 m ρ c main_v31 (by decide)).trans ((s5 m ρ c main_v31 (by decide)).trans (w4_v31 m ρ c))

/-! ## The first layer -/

/-- After the first launch: x · W1. -/
theorem w4_v32 : W4 m ρ c (Proc.devRef .tc main_v32) = val_main_v32 (F := Ideal) (m ((c : Thread nD τ).loc main_arg0)) (m ((c : Thread nD τ).loc main_arg3)) := by
  refine (W4_arr m ρ c 2).trans ?_
  refine (Layer1.final (V3 m ρ) Cert.ReferenceIdeal.dot_S100000x64_S64x64_S100000x64_1_0_0_1_n_n
    Cert.ReferenceIdeal.dot_S100000x64_S64x64_S100000x64_1_0_0_1_n_n.wf rfl c).trans ?_
  show Layer1.product _ (W3 m ρ c (Proc.devRef .tc main_arg0)) (W3 m ρ c (Proc.devRef .tc main_arg3)) = _
  rw [k3 m ρ c main_arg0 (by decide) (by decide) (by decide), k3 m ρ c main_arg3 (by decide) (by decide) (by decide)]
  rfl

/-- After the stretch behind it: the aggregation of x · W1 over the edges. -/
theorem w5_v45 : W5 m ρ c (Proc.devRef .tc main_v45) = val_main_v45 (F := Ideal) (m ((c : Thread nD τ).loc main_arg0)) (m ((c : Thread nD τ).loc main_arg1)) (m ((c : Thread nD τ).loc main_arg3)) :=
  B_v45 (W4 m ρ c) _ _ _ (w4_v32 m ρ c) (w4_v5 m ρ c) (w4_v6 m ρ c) (w4_v31 m ρ c)

/-- The first bias as a row. -/
theorem w5_v46 : W5 m ρ c (Proc.devRef .tc main_v46) = val_main_v46 (F := Ideal) (m ((c : Thread nD τ).loc main_arg4)) :=
  (B_v46 (W4 m ρ c)).trans (congrArg (val_main_v46 (F := Ideal)) (k4 m ρ c main_arg4 (by decide) (by decide) (by decide) (by decide)))

/-! ## The second layer -/

/-- After the second launch: max(agg + b1, 0) · W2. -/
theorem w6_v47 : W6 m ρ c (Proc.devRef .tc main_v47) = val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 3).trans ?_
  refine (Layer2.final (V5 m ρ) Cert.ReferenceIdeal.dot_S100000x64_S64x64_S100000x64_1_0_0_1_n_n
    Cert.ReferenceIdeal.dot_S100000x64_S64x64_S100000x64_1_0_0_1_n_n.wf rfl Cert.ReferenceIdeal.Facts₀.bcast_S1x64_S100000x64_0_1 Cert.ReferenceIdeal.Facts₀.bcast_S_S100000x64 c).trans ?_
  show Layer2.biasClampProduct _ _ _ (W5 m ρ c (Proc.devRef .tc main_v45)) (W5 m ρ c (Proc.devRef .tc main_v46)) (W5 m ρ c (Proc.devRef .tc main_arg5)) = _
  rw [w5_v45 m ρ c, w5_v46 m ρ c, k5 m ρ c main_arg5 (by decide) (by decide) (by decide) (by decide) (by decide)]
  rfl

/-- After the stretch behind it: the aggregation of that over the edges. -/
theorem w7_v60 : W7 m ρ c (Proc.devRef .tc main_v60) = val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  C_v60 (W6 m ρ c) _ _ _ _ _ (w6_v47 m ρ c) ((w6_v5 m ρ c).trans (v55_eq _).symm) ((w6_v6 m ρ c).trans (v56_eq _).symm)
    ((w6_v31 m ρ c).trans (v81_eq _).symm)

/-- The second bias as a row. -/
theorem w7_v61 : W7 m ρ c (Proc.devRef .tc main_v61) = val_main_v96 (F := Ideal) (m ((c : Thread nD τ).loc main_arg6)) :=
  (C_v61 (W6 m ρ c)).trans (congrArg (val_main_v96 (F := Ideal))
    (k6 m ρ c main_arg6 (by decide) (by decide) (by decide) (by decide) (by decide) (by decide)))

/-- After the third launch: max(agg + b2, 0). -/
theorem w8_v62 : W8 m ρ c (Proc.devRef .tc main_v62) = val_main_v99 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W8_arr m ρ c 2).trans ?_
  refine (Clamp3.final (V7 m ρ) Cert.ReferenceIdeal.Facts₀.bcast_S1x64_S100000x64_0_1 Cert.ReferenceIdeal.Facts₀.bcast_S_S100000x64 c).trans ?_
  show Clamp3.biasClamp _ _ (W7 m ρ c (Proc.devRef .tc main_v60)) (W7 m ρ c (Proc.devRef .tc main_v61)) = _
  rw [w7_v60 m ρ c, w7_v61 m ρ c]
  rfl

/-! ## The pooling and the head -/

/-- After the last stretch: the rows pooled by graph. -/
theorem w9_v65 : W9 m ρ c (Proc.devRef .tc main_v65)
    = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (D_v65 (W8 m ρ c) _ _ _ _ _ _ (w8_v62 m ρ c)).trans ?_
  rw [k8 m ρ c main_arg2 (by decide) (by decide) (by decide) (by decide) (by decide) (by decide) (by decide) (by decide)]

theorem w9_v66 : W9 m ρ c (Proc.devRef .tc main_v66) = val_main_v104 (F := Ideal) (m ((c : Thread nD τ).loc main_arg8)) :=
  (D_v66 (W8 m ρ c)).trans (congrArg (val_main_v104 (F := Ideal))
    (k8 m ρ c main_arg8 (by decide) (by decide) (by decide) (by decide) (by decide) (by decide) (by decide) (by decide)))

theorem w9_v67 : W9 m ρ c (Proc.devRef .tc main_v67) = val_main_v109 (F := Ideal) (m ((c : Thread nD τ).loc main_arg10)) :=
  (D_v67 (W8 m ρ c)).trans (congrArg (val_main_v109 (F := Ideal))
    (k8 m ρ c main_arg10 (by decide) (by decide) (by decide) (by decide) (by decide) (by decide) (by decide) (by decide)))

/-- THE RESULT: after the last launch the result buffer holds the reference's last stage of the same arguments. -/
theorem value : W10 m ρ c (Proc.devRef .tc main_v68)
    = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 5).trans ?_
  refine (Head.final (V9 m ρ) Cert.ReferenceIdeal.dot_S128x64_S64x64_S128x64_1_0_0_1_n_n Cert.ReferenceIdeal.dot_S128x64_S64x1_S128x1_1_0_0_1_n_n
    Cert.ReferenceIdeal.dot_S128x64_S64x64_S128x64_1_0_0_1_n_n.wf rfl Cert.ReferenceIdeal.dot_S128x64_S64x1_S128x1_1_0_0_1_n_n.wf rfl
    Cert.ReferenceIdeal.Facts₀.bcast_S1x64_S128x64_0_1 Cert.ReferenceIdeal.Facts₀.bcast_S_S128x64 Cert.ReferenceIdeal.Facts₀.bcast_S1x1_S128x1_0_1 c).trans ?_
  show Head.head _ _ _ _ _ (W9 m ρ c (Proc.devRef .tc main_v65)) (W9 m ρ c (Proc.devRef .tc main_arg7)) (W9 m ρ c (Proc.devRef .tc main_v66))
    (W9 m ρ c (Proc.devRef .tc main_arg9)) (W9 m ρ c (Proc.devRef .tc main_v67)) = _
  rw [w9_v65 m ρ c, w9_v66 m ρ c, w9_v67 m ρ c,
    k9 m ρ c main_arg7 (by decide) (by decide) (by decide) (by decide) (by decide) (by decide) (by decide) (by decide) (by decide),
    k9 m ρ c main_arg9 (by decide) (by decide) (by decide) (by decide) (by decide) (by decide) (by decide) (by decide) (by decide)]
  rfl

end Cert.KernelIdeal.Result

end
-- ==== Proof.lean ====
/-
  The claim: a two-layer graph convolution with sum pooling and a two-layer read-out head, whose node-wise linear maps,
  bias-and-clamp stages and head run as four tiled launches among host gathers and scatters, against the plain
  formulation of the same network.

  At the exact instance a change of float format is the identity and a product into a zero accumulator is the plain sum of
  products, so every launch leaves, block by block, exactly the whole-array operation the reference applies at that place:
  x · W1, then max(agg + b1, 0) · W2, then max(agg + b2, 0), then the head max(g · W3 + b3, 0) · W4 + b4. The host
  operations between the launches — the edge normalisation, the two aggregations over the edges, the pooling by graph —
  are the reference's own, operation for operation (the reference computes the normalisation once per layer, the kernel
  once; the values are the same). Nothing is rearranged, so the equality of the two results holds for all extended-real
  inputs and the finiteness of the inputs is never used. The frames of the two kernel programs are the generated ones;
  the reference's frame is its run with the result dropped; the idealization rewrote nothing, so it is preserved trivially.
-/
import proofs.«174137_j66829691126193_1_alg».proof.Defs
import proofs.«174137_j66829691126193_1_alg».proof.Proof.Gen.Kernel
import proofs.«174137_j66829691126193_1_alg».proof.Proof.Gen.Kernel.Skeleton
import proofs.«174137_j66829691126193_1_alg».proof.Proof.Gen.Kernel.Launch
import proofs.«174137_j66829691126193_1_alg».proof.Proof.Gen.Kernel.Points
import proofs.«174137_j66829691126193_1_alg».proof.Proof.Gen.Kernel.Frame
import proofs.«174137_j66829691126193_1_alg».proof.Proof.Gen.KernelIdeal
import proofs.«174137_j66829691126193_1_alg».proof.Proof.Gen.KernelIdeal.Skeleton
import proofs.«174137_j66829691126193_1_alg».proof.Proof.Gen.KernelIdeal.Launch
import proofs.«174137_j66829691126193_1_alg».proof.Proof.Gen.KernelIdeal.Points
import proofs.«174137_j66829691126193_1_alg».proof.Proof.Gen.KernelIdeal.Frame
import proofs.«174137_j66829691126193_1_alg».proof.Proof.Gen.ReferenceIdeal
import proofs.«174137_j66829691126193_1_alg».proof.Proof.Gen.Pre_finite_inputs
import proofs.«174137_j66829691126193_1_alg».proof.Proof.RefRun
import proofs.«174137_j66829691126193_1_alg».proof.Proof.RefRead
import proofs.«174137_j66829691126193_1_alg».proof.Proof.KernelRun
import proofs.«174137_j66829691126193_1_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the reference's last stage of the kernel's arguments in their result buffer. -/
theorem algebraic : Cert.algebraic_KernelIdeal_ReferenceIdeal := by
  intro m ρ m' ρ' _ hagree
  refine ⟨fun c => Cert.ReferenceIdeal.ReadP.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Result.value m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10⟩ := hagree c
    rw [Cert.ReferenceIdeal.ReadP.val_main_v111_eq m' c, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
